-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x128 : Shape := ⟨4, ![8, 64, 256, 128]⟩
abbrev S128x128 : Shape := ⟨2, ![128, 128]⟩
abbrev S8x64 : Shape := ⟨2, ![8, 64]⟩
abbrev S_ : Shape := ⟨0, ![]⟩

class Facts : Prop where
  bcast_S_S8x64x256x128 : S_.BroadcastsInDim S8x64x256x128 (![] : Fin 0 → Fin S8x64x256x128.rank)
  reducesTo_S8x64x256x128_S_d0_1_2_3 : S8x64x256x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x64x256x128 .f32) (main_arg1 : FVec F S128x128 .f32) (main_arg2 : IVec S8x64 32) : IVec S_ 1 :=
  let main_v0 : FVec F S8x64x256x128 .f32 := Host.absf main_arg0
  let main_cst : FVec F S_ .f32 := constant S_ .f32 0x7F800000#32
  let main_v1 : FVec F S8x64x256x128 .f32 := broadcastInDim S8x64x256x128 ![] bcast_S_S8x64x256x128 main_cst
  let main_v2 : IVec S8x64x256x128 1 := cmpf .olt main_v0 main_v1
  let main_c : IVec S_ 1 := constantI S_ 1 1#1
  let main_v3 : IVec S_ 1 := (fun x v => Host.reduce IntOp.andi x v reducesTo_S8x64x256x128_S_d0_1_2_3 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S8x64x256x128 : Shape := ⟨4, ![8, 64, 256, 128]⟩
abbrev S128x128 : Shape := ⟨2, ![128, 128]⟩
abbrev S8x64 : Shape := ⟨2, ![8, 64]⟩
abbrev S512x256x128 : Shape := ⟨3, ![512, 256, 128]⟩
abbrev S512x1 : Shape := ⟨2, ![512, 1]⟩
abbrev S16x256x128 : Shape := ⟨3, ![16, 256, 128]⟩
abbrev S16x1 : Shape := ⟨2, ![16, 1]⟩
abbrev S4096x128 : Shape := ⟨2, ![4096, 128]⟩
abbrev S16x256x256 : Shape := ⟨3, ![16, 256, 256]⟩
abbrev S16x256 : Shape := ⟨2, ![16, 256]⟩
abbrev S16x256x1 : Shape := ⟨3, ![16, 256, 1]⟩
abbrev S16x1x1 : Shape := ⟨3, ![16, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x64x256x128, .f32⟩
  | .hbm, ⟨1, _⟩ => ⟨S128x128, .f32⟩
  | .hbm, ⟨2, _⟩ => ⟨S8x64, .i32⟩
  | .hbm, ⟨3, _⟩ => ⟨S512x256x128, .f32⟩
  | .hbm, ⟨4, _⟩ => ⟨S512x1, .i32⟩
  | .hbm, ⟨5, _⟩ => ⟨S512x256x128, .f32⟩
  | .hbm, ⟨6, _⟩ => ⟨S8x64x256x128, .f32⟩
  | .local _ .vmem, ⟨0, _⟩ => ⟨S16x256x128, .f32⟩
  | .local _ .vmem, ⟨1, _⟩ => ⟨S16x256x128, .f32⟩
  | .local _ .vmem, ⟨2, _⟩ => ⟨S128x128, .f32⟩
  | .local _ .vmem, ⟨3, _⟩ => ⟨S16x1, .i32⟩
  | .local _ .vmem, ⟨4, _⟩ => ⟨S16x1, .i32⟩
  | .local _ .vmem, ⟨5, _⟩ => ⟨S16x256x128, .f32⟩
  | .local _ .vmem, ⟨6, _⟩ => ⟨S16x256x128, .f32⟩
  | _, _ => ⟨S8x64x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x64x256x128_S512x256x128 : S8x64x256x128.ShapeCasts S512x256x128
  shapeCasts_S8x64_S512x1 : S8x64.ShapeCasts S512x1
  inb_S16x256x128_S16x256x128_0_0_0 : ∀ a, (![0, 0, 0] : Fin 3 → Nat) a + S16x256x128.size a ≤ S16x256x128.size a
  h_S16x256x128 : 0 < S16x256x128.numel
  shapeCasts_S16x256x128_S16x256x128 : S16x256x128.ShapeCasts S16x256x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S16x256x128_S4096x128 : S16x256x128.ShapeCasts S4096x128
  shapeCasts_S4096x128_S16x256x128 : S4096x128.ShapeCasts S16x256x128
  reduces_S16x256x256_S16x256 : S16x256x256.Reduces [2] S16x256
  shapeCasts_S16x256_S16x256x1 : S16x256.ShapeCasts S16x256x1
  broadcasts_S16x256x1_S16x256x256 : S16x256x1.Broadcasts S16x256x256
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S16x1x1 : S16x1.ShapeCasts S16x1x1
  iota_S16x256x256_d2_w32 : S16x256x256.Iotas .tc 32 [2]
  broadcasts_S16x1x1_S16x256x256 : S16x1x1.Broadcasts S16x256x256
  shapeCasts_S512x256x128_S8x64x256x128 : S512x256x128.ShapeCasts S8x64x256x128
  dot_S4096x128_S128x128_S4096x128_1_0_0_1_n_n_wf : DotDims.WF S4096x128 S128x128 S4096x128 [1] [0] [0] [1] [] []
  dot_S16x256x128_S16x256x128_S16x256x256_2_2_1_1_0_0_wf : DotDims.WF S16x256x128 S16x256x128 S16x256x256 [2] [2] [1] [1] [0] [0]
  dot_S16x256x256_S16x256x128_S16x256x128_2_1_1_2_0_0_wf : DotDims.WF S16x256x256 S16x256x128 S16x256x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x128.size a ≤ S512x256x128.size a
  hwx0_0 : ∀ i : grid0.Coords, EltTy.bits .f32 = 32 ∨ (Rect.block (s := S512x256x128) S16x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .i32 = 32 ∨ (Rect.block (s := S512x1) S16x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x128.size a ≤ S512x256x128.size a
  hwx0_3 : ∀ i : grid0.Coords, EltTy.bits .f32 = 32 ∨ (Rect.block (s := S512x256x128) S16x256x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S16x256x128_S16x256x128_S16x256x256_2_2_1_1_0_0 : DotDims S16x256x128 S16x256x128 S16x256x256 where
  lhsContracting := [2]
  rhsContracting := [2]
  lhsNonContracting := [1]
  rhsNonContracting := [1]
  lhsBatch := [0]
  rhsBatch := [0]
  wf := dot_S16x256x128_S16x256x128_S16x256x256_2_2_1_1_0_0_wf
def dot_S16x256x256_S16x256x128_S16x256x128_2_1_1_2_0_0 : DotDims S16x256x256 S16x256x128 S16x256x128 where
  lhsContracting := [2]
  rhsContracting := [1]
  lhsNonContracting := [1]
  rhsNonContracting := [2]
  lhsBatch := [0]
  rhsBatch := [0]
  wf := dot_S16x256x256_S16x256x128_S16x256x128_2_1_1_2_0_0_wf

abbrev win0_0 : Pipeline.Window sig grid0 :=
  Pipeline.Window.ofSpec (Memref.whole main_v0) S16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64x256x128 : Shape := ⟨4, ![8, 64, 256, 128]⟩
abbrev S128x128 : Shape := ⟨2, ![128, 128]⟩
abbrev S8x64 : Shape := ⟨2, ![8, 64]⟩
abbrev S512x256x128 : Shape := ⟨3, ![512, 256, 128]⟩
abbrev S512x256x256 : Shape := ⟨3, ![512, 256, 256]⟩
abbrev S_ : Shape := ⟨0, ![]⟩
abbrev S512x256 : Shape := ⟨2, ![512, 256]⟩
abbrev S512x256x1 : Shape := ⟨3, ![512, 256, 1]⟩
abbrev S256 : Shape := ⟨1, ![256]⟩
abbrev S1x256 : Shape := ⟨2, ![1, 256]⟩
abbrev S512 : Shape := ⟨1, ![512]⟩
abbrev S512x1 : Shape := ⟨2, ![512, 1]⟩
abbrev S512x1x256 : Shape := ⟨3, ![512, 1, 256]⟩

abbrev nBuf : Space → Nat
  | .hbm => 42
  | .vmem => 0
  | .smem => 0
  | _ => 0

abbrev bufTy : (tb : Table) → Fin (tcTables nBuf tb) → BufTy
  | .hbm, ⟨0, _⟩ => ⟨S8x64x256x128, .f32⟩
  | .hbm, ⟨1, _⟩ => ⟨S128x128, .f32⟩
  | .hbm, ⟨2, _⟩ => ⟨S8x64, .i32⟩
  | .hbm, ⟨3, _⟩ => ⟨S512x256x128, .f32⟩
  | .hbm, ⟨4, _⟩ => ⟨S512x256x128, .f32⟩
  | .hbm, ⟨5, _⟩ => ⟨S512x256x256, .f32⟩
  | .hbm, ⟨6, _⟩ => ⟨S512x256x256, .f32⟩
  | .hbm, ⟨7, _⟩ => ⟨S_, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S512x256x1, .f32⟩
  | .hbm, ⟨13, _⟩ => ⟨S512x256x256, .f32⟩
  | .hbm, ⟨14, _⟩ => ⟨S512x256x256, .f32⟩
  | .hbm, ⟨15, _⟩ => ⟨S512x256x256, .f32⟩
  | .hbm, ⟨16, _⟩ => ⟨S_, .f32⟩
  | .hbm, ⟨17, _⟩ => ⟨S512x256, .f32⟩
  | .hbm, ⟨18, _⟩ => ⟨S512x256x1, .f32⟩
  | .hbm, ⟨19, _⟩ => ⟨S512x256x256, .f32⟩
  | .hbm, ⟨20, _⟩ => ⟨S512x256x256, .f32⟩
  | .hbm, ⟨21, _⟩ => ⟨S256, .i32⟩
  | .hbm, ⟨22, _⟩ => ⟨S1x256, .i32⟩
  | .hbm, ⟨23, _⟩ => ⟨S512, .i32⟩
  | .hbm, ⟨24, _⟩ => ⟨S512x1, .i32⟩
  | .hbm, ⟨25, _⟩ => ⟨S512x256, .i32⟩
  | .hbm, ⟨26, _⟩ => ⟨S512x256, .i32⟩
  | .hbm, ⟨27, _⟩ => ⟨S512x256, .i1⟩
  | .hbm, ⟨28, _⟩ => ⟨S512x256, .f32⟩
  | .hbm, ⟨29, _⟩ => ⟨S512x1x256, .f32⟩
  | .hbm, ⟨30, _⟩ => ⟨S512x256x256, .f32⟩
  | .hbm, ⟨31, _⟩ => ⟨S512x256x256, .f32⟩
  | .hbm, ⟨32, _⟩ => ⟨S_, .f32⟩
  | .hbm, ⟨33, _⟩ => ⟨S512x256, .f32⟩
  | .hbm, ⟨34, _⟩ => ⟨S512x256x1, .f32⟩
  | .hbm, ⟨35, _⟩ => ⟨S_, .f32⟩
  | .hbm, ⟨36, _⟩ => ⟨S512x256x1, .f32⟩
  | .hbm, ⟨37, _⟩ => ⟨S512x256x1, .f32⟩
  | .hbm, ⟨38, _⟩ => ⟨S512x256x256, .f32⟩
  | .hbm, ⟨39, _⟩ => ⟨S512x256x256, .f32⟩
  | .hbm, ⟨40, _⟩ => ⟨S512x256x128, .f32⟩
  | .hbm, ⟨41, _⟩ => ⟨S8x64x256x128, .f32⟩
  | _, _ => ⟨S8x64x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  shapeCasts_S8x64x256x128_S512x256x128 : S8x64x256x128.ShapeCasts S512x256x128
  reducesTo_S512x256x256_S512x256_d2 : S512x256x256.ReducesTo [2] S512x256
  h_S_ : 0 < S_.numel
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S512x256x1_S512x256x256_0_1_2 : S512x256x1.BroadcastsInDim S512x256x256 (![0, 1, 2] : Fin 3 → Fin S512x256x256.rank)
  bcast_S256_S1x256_1 : S256.BroadcastsInDim S1x256 (![1] : Fin 1 → Fin S1x256.rank)
  shapeCasts_S8x64_S512 : S8x64.ShapeCasts S512
  bcast_S512_S512x1_0 : S512.BroadcastsInDim S512x1 (![0] : Fin 1 → Fin S512x1.rank)
  bcast_S1x256_S512x256_0_1 : S1x256.BroadcastsInDim S512x256 (![0, 1] : Fin 2 → Fin S512x256.rank)
  bcast_S512x1_S512x256_0_1 : S512x1.BroadcastsInDim S512x256 (![0, 1] : Fin 2 → Fin S512x256.rank)
  bcast_S512x256_S512x1x256_0_2 : S512x256.BroadcastsInDim S512x1x256 (![0, 2] : Fin 2 → Fin S512x1x256.rank)
  bcast_S512x1x256_S512x256x256_0_1_2 : S512x1x256.BroadcastsInDim S512x256x256 (![0, 1, 2] : Fin 3 → Fin S512x256x256.rank)
  bcast_S_S512x256x1 : S_.BroadcastsInDim S512x256x1 (![] : Fin 0 → Fin S512x256x1.rank)
  shapeCasts_S512x256x128_S8x64x256x128 : S512x256x128.ShapeCasts S8x64x256x128
  dot_S512x256x128_S128x128_S512x256x128_2_0_01_1_n_n_wf : DotDims.WF S512x256x128 S128x128 S512x256x128 [2] [0] [0, 1] [1] [] []
  dot_S512x256x128_S512x256x128_S512x256x256_2_2_1_1_0_0_wf : DotDims.WF S512x256x128 S512x256x128 S512x256x256 [2] [2] [1] [1] [0] [0]
  dot_S512x256x256_S512x256x128_S512x256x128_2_1_1_2_0_0_wf : DotDims.WF S512x256x256 S512x256x128 S512x256x128 [2] [1] [1] [2] [0] [0]

variable [Facts₀]

def dot_S512x256x128_S128x128_S512x256x128_2_0_01_1_n_n : DotDims S512x256x128 S128x128 S512x256x128 where
  lhsContracting := [2]
  rhsContracting := [0]
  lhsNonContracting := [0, 1]
  rhsNonContracting := [1]
  lhsBatch := []
  rhsBatch := []
  wf := dot_S512x256x128_S128x128_S512x256x128_2_0_01_1_n_n_wf
def dot_S512x256x128_S512x256x128_S512x256x256_2_2_1_1_0_0 : DotDims S512x256x128 S512x256x128 S512x256x256 where
  lhsContracting := [2]
  rhsContracting := [2]
  lhsNonContracting := [1]
  rhsNonContracting := [1]
  lhsBatch := [0]
  rhsBatch := [0]
  wf := dot_S512x256x128_S512x256x128_S512x256x256_2_2_1_1_0_0_wf
def dot_S512x256x256_S512x256x128_S512x256x128_2_1_1_2_0_0 : DotDims S512x256x256 S512x256x128 S512x256x128 where
  lhsContracting := [2]
  rhsContracting := [1]
  lhsNonContracting := [1]
  rhsNonContracting := [2]
  lhsBatch := [0]
  rhsBatch := [0]
  wf := dot_S512x256x256_S512x256x128_S512x256x128_2_1_1_2_0_0_wf

class Facts : Prop extends Facts₀ where

variable [Facts]
-- ==== Proof.Spec.lean ====
/-
  One sentence of masked, tanh-squashed self-attention, as a function on the extended reals.

  A sentence is a 256 × 128 array of word encodings `x`; `w` is the 128 × 128 projection; `len` is the
  number of valid words (a signed 32-bit word). With `q = x · w`, the logits are `tanh (q · xᵀ)`, each row is
  soft-maxed (the row's maximum subtracted before the exponential), the columns at positions `t` with
  `¬ (t < len)` are set to zero, each row is divided by its sum plus a small constant, and the result
  multiplies `x`. Both programs compute this function of each sentence; the two ways they silence the
  masked columns — a selection against zero, a product with the mask read as 0 / 1 — agree on every
  extended real, because `p · 0 = 0` and `p · 1 = p` there with no finiteness asked of `p`.
-/
import Idealize.ShloMosaic.PureOps.Ideal
import Idealize.ShloMosaic.PureOps.Ideal.Laws
import Idealize.ShloMosaic.Lib.ValueIdx

noncomputable section

namespace Cert.Attn

open Idealize.ShloMosaic

variable (x : Fin 256 → Fin 128 → EReal) (w : Fin 128 → Fin 128 → EReal) (len : BitVec 32)

/-- The projected words `x · w`. -/
def proj (s : Fin 256) (f : Fin 128) : EReal := ∑ e : Fin 128, x s e * w e f

/-- The squashed logit of query word `s` against key word `t`. -/
def logit (s t : Fin 256) : EReal := Ideal.tanh (∑ e : Fin 128, proj x w s e * x t e)

/-- The maximum of row `s` of the logits, folded from `-∞`. -/
def rowMax (s : Fin 256) : EReal :=
  (Finset.univ : Finset (Fin 256)).fold max (Ideal.ofBits .f32 0xFF800000#32) (fun t => logit x w s t)

/-- The exponential of a logit less its row's maximum. -/
def expo (s t : Fin 256) : EReal := Ideal.exp (logit x w s t - rowMax x w s)

/-- The soft-max of row `s` at column `t`. -/
def soft (s t : Fin 256) : EReal := Ideal.div (expo x w s t) (∑ k : Fin 256, expo x w s k)

/-- The soft-max with the columns past the sentence's length set to zero. -/
def masked (s t : Fin 256) : EReal :=
  Scalar.select (IntOp.cmpi .slt (BitVec.ofNat 32 t.val) len) (soft x w s t) (Ideal.ofBits .f32 0x00000000#32)

/-- The masked row divided by its sum plus the small constant. -/
def renorm (s t : Fin 256) : EReal :=
  Ideal.div (masked x w len s t) ((∑ k : Fin 256, masked x w len s k) + Ideal.ofBits .f32 0x322BCC77#32)

/-- The attended words: the renormalised weights times the (unprojected) words. -/
def att (s : Fin 256) (e : Fin 128) : EReal := ∑ t : Fin 256, renorm x w len s t * x t e

/-- A product with a one-bit mask read as the number 0 or 1 is the selection against zero, on every
    extended real: `p · 1 = p` and `p · 0 = 0` hold at the infinities too. -/
theorem mul_mask (c : BitVec 1) (p : EReal) :
    p * ((c.toNat : ℝ) : EReal) = Scalar.select c p (Ideal.ofBits .f32 0x00000000#32) := by
  rcases (by decide : ∀ c : BitVec 1, c = 0#1 ∨ c = 1#1) c with rfl | rfl
  · rw [ValueIdx.select_zero, Ideal.ofBits_zero_f32]; simp
  · rw [ValueIdx.select_one]; simp

/-- The maximum of the fold's starting value with the fold is the fold: a fold of `max` is at least
    where it starts. -/
theorem max_fold_self {ι : Type} (S : Finset ι) (a : EReal) (f : ι → EReal) :
    max a (S.fold max a f) = S.fold max a f :=
  max_eq_right ((Finset.le_fold_max a).mpr (Or.inl le_rfl))

/-! ## The whole result: 512 sentences, laid out 8 × 64 in the arguments -/

open Idealize.ShloMosaic.ValueIdx

/-- Sentence `b` of the 512 sits at row `b / 64`, column `b % 64` of the 8 × 64 batch axes. -/
abbrev hi (b : Fin 512) : Fin 8 := ⟨b.val / 64, by have := b.isLt; omega⟩
abbrev lo (b : Fin 512) : Fin 64 := ⟨b.val % 64, Nat.mod_lt _ (by decide)⟩

/-- The result as one function of the three argument arrays, at `(b, s, e)` of the sentence-major layout:
    the one-sentence function of sentence `b`, the projection, and sentence `b`'s length. -/
def whole (X : (⟨4, ![8, 64, 256, 128]⟩ : Shape).Idx → EReal) (W : (⟨2, ![128, 128]⟩ : Shape).Idx → EReal)
    (L : (⟨2, ![8, 64]⟩ : Shape).Idx → BitVec 32) : (⟨3, ![512, 256, 128]⟩ : Shape).Idx → EReal :=
  fun i => att (fun s e => X (ix4 (hi (i 0)) (lo (i 0)) s e)) (fun e f => W (ix2 e f))
    (L (ix2 (hi (i 0)) (lo (i 0)))) (i 1) (i 2)

theorem whole_apply (X : (⟨4, ![8, 64, 256, 128]⟩ : Shape).Idx → EReal) (W : (⟨2, ![128, 128]⟩ : Shape).Idx → EReal)
    (L : (⟨2, ![8, 64]⟩ : Shape).Idx → BitVec 32) (b : Fin 512) (s : Fin 256) (e : Fin 128) :
    whole X W L (ix3 b s e) = att (fun s e => X (ix4 (hi b) (lo b) s e)) (fun e f => W (ix2 e f))
      (L (ix2 (hi b) (lo b))) s e := rfl

end Cert.Attn

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.KernelStages.lean ====
/-
  The kernel's body on one block of sixteen sentences, read entry by entry.

  The body's arithmetic is cut into the stages the mathematics names — the words, their projection, the
  squashed logits, each row's maximum, the exponentials, the soft-max, the mask, the renormalised weights, the
  attended words — each a definition over the three loaded blocks, and the body's stored value is the last
  stage by unfolding. Each stage read at an entry `(b, s, ·)` of the block is the corresponding stage of the
  one-sentence function (`Cert.Attn`) at sentence `b` of the block: the changes of float format are the
  identity at the ideal values, a matrix product into a zero accumulator is the sum of products over its
  contracted axis, a reduction over the last axis is the sum (or the fold of `max`) over that axis, and the
  reshapes and broadcasts move no value.
-/
import proofs.«108985_j69638599737532_1_alg».proof.Proof.Gen.KernelIdeal.Skeleton
import proofs.«108985_j69638599737532_1_alg».proof.Proof.Spec
import proofs.«108985_j69638599737532_1_alg».proof.Proof.LibIndexReads

set_option synthInstance.maxSize 4096

noncomputable section

namespace Cert.KernelIdeal.Stages

open Cert.KernelIdeal Cert.KernelIdeal.Gen Idealize.ShloMosaic Idealize.ShloMosaic.ValueIdx Cert.IndexReads

variable (x0 : Vec Ideal S16x256x128 .f32) (x1 : Vec Ideal S128x128 .f32) (x2 : Vec Ideal S16x1 .i32)

/-! ## The stages -/

/-- The block's words, in the narrow format (the same numbers at the ideal values). -/
def words : FVec Ideal S16x256x128 .bf16 :=
  truncf .bf16 (shapeCast S16x256x128 x0 shapeCasts_S16x256x128_S16x256x128) bitsLt_bf16_f32

/-- The projected words: the block flattened to rows, times the projection, cut back into sentences. -/
def projected : FVec Ideal S16x256x128 .bf16 :=
  truncf .bf16 (shapeCast S16x256x128 (matmul dot_S4096x128_S128x128_S4096x128_1_0_0_1_n_n none
    (shapeCast S4096x128 (words x0) shapeCasts_S16x256x128_S4096x128) (truncf .bf16 x1 bitsLt_bf16_f32)
    (constant S4096x128 .f32 0x00000000#32)) shapeCasts_S4096x128_S16x256x128) bitsLt_bf16_f32

/-- The squashed logits, sentence by sentence. -/
def logits : FVec Ideal S16x256x256 .f32 :=
  tanh (matmul dot_S16x256x128_S16x256x128_S16x256x256_2_2_1_1_0_0 none (projected x0 x1) (words x0) (constant S16x256x256 .f32 0x00000000#32))

/-- Each row's maximum. -/
def rowMax : FVec Ideal S16x256 .f32 :=
  multiReduction .maximumf [2] S16x256 (logits x0 x1) 0xFF800000#32 reduces_S16x256x256_S16x256 (.inl rfl) rfl

/-- The exponentials of the logits less their row's maximum. -/
def expo : FVec Ideal S16x256x256 .f32 :=
  exp (subf (logits x0 x1) (broadcastTo S16x256x256 (shapeCast S16x256x1 (rowMax x0 x1) shapeCasts_S16x256_S16x256x1)
    broadcasts_S16x256x1_S16x256x256))

/-- The soft-max. -/
def soft : FVec Ideal S16x256x256 .f32 :=
  divf (expo x0 x1) (broadcastTo S16x256x256 (shapeCast S16x256x1
    (multiReduction .add [2] S16x256 (expo x0 x1) 0x00000000#32 reduces_S16x256x256_S16x256 (.inl rfl) rfl)
    shapeCasts_S16x256_S16x256x1) broadcasts_S16x256x1_S16x256x256)

/-- Which columns are kept: the key position below the sentence's length. -/
def keep : IVec S16x256x256 1 :=
  cmpi .slt (iota .tc S16x256x256 32 [2] iota_S16x256x256_d2_w32)
    (broadcastTo S16x256x256 (shapeCast S16x1x1 (shapeCast S16x1 x2 shapeCasts_S16x1_S16x1) shapeCasts_S16x1_S16x1x1)
      broadcasts_S16x1x1_S16x256x256)

/-- The soft-max with the other columns set to zero. -/
def masked : FVec Ideal S16x256x256 .f32 :=
  select (keep x2) (soft x0 x1) (broadcast S16x256x256 (Scalar.ofBits (F := Ideal) .f32 0x00000000#32))

/-- The masked rows divided by their sums plus the small constant. -/
def renorm : FVec Ideal S16x256x256 .f32 :=
  divf (masked x0 x1 x2) (broadcastTo S16x256x256 (addf (shapeCast S16x256x1
    (multiReduction .add [2] S16x256 (masked x0 x1 x2) 0x00000000#32 reduces_S16x256x256_S16x256 (.inl rfl) rfl)
    shapeCasts_S16x256_S16x256x1) (broadcast S16x256x1 (Scalar.ofBits (F := Ideal) .f32 0x322BCC77#32)))
    broadcasts_S16x256x1_S16x256x256)

/-- The attended words. -/
def attended : FVec Ideal S16x256x128 .f32 :=
  matmul dot_S16x256x256_S16x256x128_S16x256x128_2_1_1_2_0_0 none (truncf .bf16 (renorm x0 x1 x2) bitsLt_bf16_f32) (words x0) (constant S16x256x128 .f32 0x00000000#32)

/-- The body's stored value is the last stage. -/
theorem pay_eq : k0_pay1 (F := Ideal) x0 x1 x2 = attended x0 x1 x2 := rfl

/-! ## Where each matrix product reads its operands -/

theorem flat_lhs_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem flat_lhs_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem flat_rhs_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem flat_rhs_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem qk_lhs_0 (i : S16x256x256.Idx) (q : dot_S16x256x128_S16x256x128_S16x256x256_2_2_1_1_0_0.contr.Idx) :
    (dot_S16x256x128_S16x256x128_S16x256x256_2_2_1_1_0_0.lhsIdx i q 0).val = (i 0).val := by
  unfold DotDims.lhsIdx
  rw [dif_pos (show (0 : Fin S16x256x128.rank) ∈ dot_S16x256x128_S16x256x128_S16x256x256_2_2_1_1_0_0.lhsBatch by decide)]
  rfl
theorem qk_lhs_1 (i : S16x256x256.Idx) (q : dot_S16x256x128_S16x256x128_S16x256x256_2_2_1_1_0_0.contr.Idx) :
    (dot_S16x256x128_S16x256x128_S16x256x256_2_2_1_1_0_0.lhsIdx i q 1).val = (i 1).val := by
  unfold DotDims.lhsIdx
  rw [dif_neg (show ¬(1 : Fin S16x256x128.rank) ∈ dot_S16x256x128_S16x256x128_S16x256x256_2_2_1_1_0_0.lhsBatch by decide), dif_pos (show (1 : Fin S16x256x128.rank) ∈ dot_S16x256x128_S16x256x128_S16x256x256_2_2_1_1_0_0.lhsNonContracting by decide)]
  rfl
theorem qk_lhs_2 (i : S16x256x256.Idx) (q : dot_S16x256x128_S16x256x128_S16x256x256_2_2_1_1_0_0.contr.Idx) :
    (dot_S16x256x128_S16x256x128_S16x256x256_2_2_1_1_0_0.lhsIdx i q 2).val = (q ⟨0, by decide⟩).val :=
  dot_S16x256x128_S16x256x128_S16x256x256_2_2_1_1_0_0.lhsIdx_val_of_single rfl i q
theorem qk_rhs_0 (i : S16x256x256.Idx) (q : dot_S16x256x128_S16x256x128_S16x256x256_2_2_1_1_0_0.contr.Idx) :
    (dot_S16x256x128_S16x256x128_S16x256x256_2_2_1_1_0_0.rhsIdx i q 0).val = (i 0).val := by
  unfold DotDims.rhsIdx
  rw [dif_pos (show (0 : Fin S16x256x128.rank) ∈ dot_S16x256x128_S16x256x128_S16x256x256_2_2_1_1_0_0.rhsBatch by decide)]
  rfl
theorem qk_rhs_1 (i : S16x256x256.Idx) (q : dot_S16x256x128_S16x256x128_S16x256x256_2_2_1_1_0_0.contr.Idx) :
    (dot_S16x256x128_S16x256x128_S16x256x256_2_2_1_1_0_0.rhsIdx i q 1).val = (i 2).val := by
  unfold DotDims.rhsIdx
  rw [dif_neg (show ¬(1 : Fin S16x256x128.rank) ∈ dot_S16x256x128_S16x256x128_S16x256x256_2_2_1_1_0_0.rhsBatch by decide), dif_pos (show (1 : Fin S16x256x128.rank) ∈ dot_S16x256x128_S16x256x128_S16x256x256_2_2_1_1_0_0.rhsNonContracting by decide)]
  rfl
theorem qk_rhs_2 (i : S16x256x256.Idx) (q : dot_S16x256x128_S16x256x128_S16x256x256_2_2_1_1_0_0.contr.Idx) :
    (dot_S16x256x128_S16x256x128_S16x256x256_2_2_1_1_0_0.rhsIdx i q 2).val = (q ⟨0, by decide⟩).val :=
  dot_S16x256x128_S16x256x128_S16x256x256_2_2_1_1_0_0.rhsIdx_val_of_single rfl i q

theorem pv_lhs_0 (i : S16x256x128.Idx) (q : dot_S16x256x256_S16x256x128_S16x256x128_2_1_1_2_0_0.contr.Idx) :
    (dot_S16x256x256_S16x256x128_S16x256x128_2_1_1_2_0_0.lhsIdx i q 0).val = (i 0).val := by
  unfold DotDims.lhsIdx
  rw [dif_pos (show (0 : Fin S16x256x256.rank) ∈ dot_S16x256x256_S16x256x128_S16x256x128_2_1_1_2_0_0.lhsBatch by decide)]
  rfl
theorem pv_lhs_1 (i : S16x256x128.Idx) (q : dot_S16x256x256_S16x256x128_S16x256x128_2_1_1_2_0_0.contr.Idx) :
    (dot_S16x256x256_S16x256x128_S16x256x128_2_1_1_2_0_0.lhsIdx i q 1).val = (i 1).val := by
  unfold DotDims.lhsIdx
  rw [dif_neg (show ¬(1 : Fin S16x256x256.rank) ∈ dot_S16x256x256_S16x256x128_S16x256x128_2_1_1_2_0_0.lhsBatch by decide), dif_pos (show (1 : Fin S16x256x256.rank) ∈ dot_S16x256x256_S16x256x128_S16x256x128_2_1_1_2_0_0.lhsNonContracting by decide)]
  rfl
theorem pv_lhs_2 (i : S16x256x128.Idx) (q : dot_S16x256x256_S16x256x128_S16x256x128_2_1_1_2_0_0.contr.Idx) :
    (dot_S16x256x256_S16x256x128_S16x256x128_2_1_1_2_0_0.lhsIdx i q 2).val = (q ⟨0, by decide⟩).val :=
  dot_S16x256x256_S16x256x128_S16x256x128_2_1_1_2_0_0.lhsIdx_val_of_single rfl i q
theorem pv_rhs_0 (i : S16x256x128.Idx) (q : dot_S16x256x256_S16x256x128_S16x256x128_2_1_1_2_0_0.contr.Idx) :
    (dot_S16x256x256_S16x256x128_S16x256x128_2_1_1_2_0_0.rhsIdx i q 0).val = (i 0).val := by
  unfold DotDims.rhsIdx
  rw [dif_pos (show (0 : Fin S16x256x128.rank) ∈ dot_S16x256x256_S16x256x128_S16x256x128_2_1_1_2_0_0.rhsBatch by decide)]
  rfl
theorem pv_rhs_1 (i : S16x256x128.Idx) (q : dot_S16x256x256_S16x256x128_S16x256x128_2_1_1_2_0_0.contr.Idx) :
    (dot_S16x256x256_S16x256x128_S16x256x128_2_1_1_2_0_0.rhsIdx i q 1).val = (q ⟨0, by decide⟩).val :=
  dot_S16x256x256_S16x256x128_S16x256x128_2_1_1_2_0_0.rhsIdx_val_of_single rfl i q
theorem pv_rhs_2 (i : S16x256x128.Idx) (q : dot_S16x256x256_S16x256x128_S16x256x128_2_1_1_2_0_0.contr.Idx) :
    (dot_S16x256x256_S16x256x128_S16x256x128_2_1_1_2_0_0.rhsIdx i q 2).val = (i 2).val := by
  unfold DotDims.rhsIdx
  rw [dif_neg (show ¬(2 : Fin S16x256x128.rank) ∈ dot_S16x256x256_S16x256x128_S16x256x128_2_1_1_2_0_0.rhsBatch by decide), dif_pos (show (2 : Fin S16x256x128.rank) ∈ dot_S16x256x256_S16x256x128_S16x256x128_2_1_1_2_0_0.rhsNonContracting by decide)]
  rfl

/-! ## The stages at an entry -/

/-- Sentence `b` of the block, as a 256 × 128 array. -/
abbrev sentence (b : Fin 16) : Fin 256 → Fin 128 → EReal := fun s e => x0 (ix3 b s e)
/-- The projection, as a 128 × 128 array. -/
abbrev weights : Fin 128 → Fin 128 → EReal := fun e f => x1 (ix2 e f)

theorem narrow_apply {s : Shape} (a : FVec Ideal s .f32) (h : FTy.bits .bf16 < FTy.bits .f32) (i : s.Idx) :
    (truncf .bf16 a h : FVec Ideal s .bf16) i = a i := rfl
theorem tanh_apply {s : Shape} (v : FVec Ideal s .f32) (i : s.Idx) : tanh v i = Ideal.tanh (v i) := rfl
theorem exp_apply {s : Shape} (v : FVec Ideal s .f32) (i : s.Idx) : exp v i = Ideal.exp (v i) := rfl
theorem cmpi_apply {s : Shape} {w : Nat} (p : CmpIPredicate) (a b : IVec s w) (i : s.Idx) : cmpi p a b i = IntOp.cmpi p (a i) (b i) := rfl

theorem words_apply (j : S16x256x128.Idx) : words x0 j = x0 j := by
  unfold words
  rw [shapeCast_self]
  rfl

/-- Row `b · 256 + s` of the flattened block is word `s` of sentence `b`. -/
theorem flat_apply {α : Type} (v : S16x256x128.Idx → α) (h : S16x256x128.ShapeCasts S4096x128) (b : Fin 16) (s : Fin 256) (e : Fin 128)
    (r : Fin 4096) (hr : r.val = b.val * 256 + s.val) : shapeCast S4096x128 v h (ix2 r e) = v (ix3 b s e) := by
  refine shapeCast_apply v h (ix2 r e) (ix3 b s e) ?_
  rw [Shape.rowMajor_val_two, Shape.rowMajor_val_three]
  show (b.val * 256 + s.val) * 128 + e.val = r.val * 128 + e.val
  rw [hr]

theorem unflat_apply {α : Type} (v : S4096x128.Idx → α) (h : S4096x128.ShapeCasts S16x256x128) (b : Fin 16) (s : Fin 256) (e : Fin 128)
    (r : Fin 4096) (hr : r.val = b.val * 256 + s.val) : shapeCast S16x256x128 v h (ix3 b s e) = v (ix2 r e) := by
  refine shapeCast_apply v h (ix3 b s e) (ix2 r e) ?_
  rw [Shape.rowMajor_val_two, Shape.rowMajor_val_three]
  show r.val * 128 + e.val = (b.val * 256 + s.val) * 128 + e.val
  rw [hr]

theorem projected_apply (b : Fin 16) (s : Fin 256) (f : Fin 128) :
    projected x0 x1 (ix3 b s f) = Attn.proj (sentence x0 b) (weights x1) s f := by
  have hlt : b.val * 256 + s.val < 4096 := by have := b.isLt; have := s.isLt; omega
  unfold projected Attn.proj
  refine (narrow_apply _ _ _).trans ?_
  rw [unflat_apply _ _ b s f ⟨b.val * 256 + s.val, hlt⟩ rfl]
  simp only [matmul]
  rw [matmul_zero_single dot_S4096x128_S128x128_S4096x128_1_0_0_1_n_n 128 rfl rfl none _ _ _ (fun k => ix2 ⟨b.val * 256 + s.val, hlt⟩ k) (fun k => ix2 k f)
    (fun k => funext fun a => Fin.ext (by
    match a with
    | ⟨0, _⟩ => exact flat_lhs_0 _ _
    | ⟨1, _⟩ => exact (flat_lhs_1 _ _).trans (contrEquiv1_symm_val dot_S4096x128_S128x128_S4096x128_1_0_0_1_n_n 128 rfl rfl k)))
    (fun k => funext fun a => Fin.ext (by
    match a with
    | ⟨0, _⟩ => exact (flat_rhs_0 _ _).trans (contrEquiv1_symm_val dot_S4096x128_S128x128_S4096x128_1_0_0_1_n_n 128 rfl rfl k)
    | ⟨1, _⟩ => exact flat_rhs_1 _ _))]
  refine Finset.sum_congr rfl fun k _ => ?_
  rw [flat_apply _ _ b s k ⟨b.val * 256 + s.val, hlt⟩ rfl, words_apply]
  rfl

theorem logits_apply (b : Fin 16) (s t : Fin 256) :
    logits x0 x1 (ix3 b s t) = Attn.logit (sentence x0 b) (weights x1) s t := by
  unfold logits Attn.logit
  refine (tanh_apply _ _).trans (congrArg Ideal.tanh ?_)
  simp only [matmul]
  rw [matmul_zero_single dot_S16x256x128_S16x256x128_S16x256x256_2_2_1_1_0_0 128 rfl rfl none _ _ _ (fun k => ix3 b s k) (fun k => ix3 b t k)
    (fun k => funext fun a => Fin.ext (by
    match a with
    | ⟨0, _⟩ => exact qk_lhs_0 _ _
    | ⟨1, _⟩ => exact qk_lhs_1 _ _
    | ⟨2, _⟩ => exact (qk_lhs_2 _ _).trans (contrEquiv1_symm_val dot_S16x256x128_S16x256x128_S16x256x256_2_2_1_1_0_0 128 rfl rfl k)))
    (fun k => funext fun a => Fin.ext (by
    match a with
    | ⟨0, _⟩ => exact qk_rhs_0 _ _
    | ⟨1, _⟩ => exact qk_rhs_1 _ _
    | ⟨2, _⟩ => exact (qk_rhs_2 _ _).trans (contrEquiv1_symm_val dot_S16x256x128_S16x256x128_S16x256x256_2_2_1_1_0_0 128 rfl rfl k)))]
  refine Finset.sum_congr rfl fun k _ => ?_
  rw [projected_apply, words_apply]

/-- The index a reduction over the last axis reads at coordinate `t` of row `(b, s)`. -/
theorem lift_last (h : S16x256x256.Reduces [2] S16x256) (b : Fin 16) (s t : Fin 256) :
    h.lift (ix2 b s) t = ix3 b s t :=
  funext fun c => Fin.ext (by match c with | ⟨0, _⟩ => rfl | ⟨1, _⟩ => rfl | ⟨2, _⟩ => rfl)

theorem rowMax_apply (b : Fin 16) (s : Fin 256) :
    rowMax x0 x1 (ix2 b s) = Attn.rowMax (sentence x0 b) (weights x1) s := by
  unfold rowMax Attn.rowMax
  refine (Ideal.multiReduction_maximumf_single (logits x0 x1) 0xFF800000#32 reduces_S16x256x256_S16x256 (.inl rfl) rfl (ix2 b s)).trans ?_
  show (Finset.univ : Finset (Fin 256)).fold max (Ideal.ofBits .f32 0xFF800000#32) _ = _
  refine congrArg (fun g => (Finset.univ : Finset (Fin 256)).fold max (Ideal.ofBits .f32 0xFF800000#32) g) (funext fun t => ?_)
  exact (congrArg (logits x0 x1) (lift_last _ b s t)).trans (logits_apply x0 x1 b s t)

theorem expo_apply (b : Fin 16) (s t : Fin 256) :
    expo x0 x1 (ix3 b s t) = Attn.expo (sentence x0 b) (weights x1) s t := by
  unfold expo Attn.expo
  refine (exp_apply _ _).trans (congrArg Ideal.exp ?_)
  refine (subf_apply _ _ _).trans ?_
  rw [spreadLast_apply, keepLast_apply, logits_apply, rowMax_apply]

theorem soft_apply (b : Fin 16) (s t : Fin 256) :
    soft x0 x1 (ix3 b s t) = Attn.soft (sentence x0 b) (weights x1) s t := by
  unfold soft Attn.soft
  refine (divf_apply _ _ _).trans ?_
  rw [spreadLast_apply, keepLast_apply, expo_apply]
  refine congrArg (Ideal.div _) ?_
  refine (Ideal.multiReduction_add_single (expo x0 x1) 0x00000000#32 reduces_S16x256x256_S16x256 (.inl rfl) rfl (ix2 b s)).trans ?_
  refine Finset.sum_congr rfl fun k _ => ?_
  exact (congrArg (expo x0 x1) (lift_last _ b s k)).trans (expo_apply x0 x1 b s k)

theorem keep_apply (b : Fin 16) (s t : Fin 256) :
    keep x2 (ix3 b s t) = IntOp.cmpi .slt (BitVec.ofNat 32 t.val) (x2 (ix2 b 0)) := by
  unfold keep
  refine (cmpi_apply _ _ _ _).trans ?_
  rw [iota_single_apply]
  refine congrArg (IntOp.cmpi .slt _) ?_
  refine (broadcastTo_apply _ _ (ix3 b s t) (ix3 b 0 0) fun a => by
    match a with | ⟨0, _⟩ => rfl | ⟨1, _⟩ => rfl | ⟨2, _⟩ => rfl).trans ?_
  refine (shapeCast_apply _ _ (ix3 b 0 0) (ix2 b 0) (by
    rw [Shape.rowMajor_val_two, Shape.rowMajor_val_three]
    show b.val * 1 + 0 = (b.val * 1 + 0) * 1 + 0
    omega)).trans ?_
  rw [shapeCast_self]

theorem masked_apply (b : Fin 16) (s t : Fin 256) :
    masked x0 x1 x2 (ix3 b s t) = Attn.masked (sentence x0 b) (weights x1) (x2 (ix2 b 0)) s t := by
  unfold masked Attn.masked
  refine (select_apply _ _ _ _).trans ?_
  rw [keep_apply, soft_apply]
  rfl

theorem renorm_apply (b : Fin 16) (s t : Fin 256) :
    renorm x0 x1 x2 (ix3 b s t) = Attn.renorm (sentence x0 b) (weights x1) (x2 (ix2 b 0)) s t := by
  unfold renorm Attn.renorm
  refine (divf_apply _ _ _).trans ?_
  rw [spreadLast_apply, masked_apply]
  refine congrArg (Ideal.div _) ?_
  refine (addf_apply _ _ _).trans ?_
  rw [keepLast_apply]
  refine congrArg (· + Ideal.ofBits .f32 0x322BCC77#32) ?_
  refine (Ideal.multiReduction_add_single (masked x0 x1 x2) 0x00000000#32 reduces_S16x256x256_S16x256 (.inl rfl) rfl (ix2 b s)).trans ?_
  refine Finset.sum_congr rfl fun k _ => ?_
  exact (congrArg (masked x0 x1 x2) (lift_last _ b s k)).trans (masked_apply x0 x1 x2 b s k)

/-- THE BODY AT AN ENTRY: entry `(b, s, e)` of what the body stores is the one-sentence function of
    sentence `b` of the block, the projection, and the block's `b`-th length. -/
theorem pay_apply (b : Fin 16) (s : Fin 256) (e : Fin 128) :
    k0_pay1 (F := Ideal) x0 x1 x2 (ix3 b s e) = Attn.att (sentence x0 b) (weights x1) (x2 (ix2 b 0)) s e := by
  rw [pay_eq]
  unfold attended Attn.att
  simp only [matmul]
  rw [matmul_zero_single dot_S16x256x256_S16x256x128_S16x256x128_2_1_1_2_0_0 256 rfl rfl none _ _ _ (fun k => ix3 b s k) (fun k => ix3 b k e)
    (fun k => funext fun a => Fin.ext (by
    match a with
    | ⟨0, _⟩ => exact pv_lhs_0 _ _
    | ⟨1, _⟩ => exact pv_lhs_1 _ _
    | ⟨2, _⟩ => exact (pv_lhs_2 _ _).trans (contrEquiv1_symm_val dot_S16x256x256_S16x256x128_S16x256x128_2_1_1_2_0_0 256 rfl rfl k)))
    (fun k => funext fun a => Fin.ext (by
    match a with
    | ⟨0, _⟩ => exact pv_rhs_0 _ _
    | ⟨1, _⟩ => exact (pv_rhs_1 _ _).trans (contrEquiv1_symm_val dot_S16x256x256_S16x256x128_S16x256x128_2_1_1_2_0_0 256 rfl rfl k)
    | ⟨2, _⟩ => exact pv_rhs_2 _ _))]
  refine Finset.sum_congr rfl fun k _ => ?_
  rw [words_apply]
  refine congrArg (· * x0 (ix3 b k e)) ?_
  refine (narrow_apply _ _ _).trans ?_
  rw [renorm_apply]

end Cert.KernelIdeal.Stages

end
-- ==== Proof.KernelWhole.lean ====
/-
  From the blocks to the array, and through the host lines around the kernel.

  The kernel runs on 32 blocks of sixteen sentences. Block `t` of the words is sentences `16 t … 16 t + 15` of
  the sentence-major view of the first argument (row `b` of that view is the sentence at `(b / 64, b % 64)`), the
  projection is read whole at every point, and block `t` of the lengths is entries `16 t … 16 t + 15` of the
  second integer argument flattened. So what point `t` writes back is block `t` of ONE whole-array function of
  the three arguments (`Cert.Attn.whole`); the 32 blocks tile the result's 512 sentences, so the array after
  the run is that function; and the last host line only views it as 8 × 64 × 256 × 128.
-/
import proofs.«108985_j69638599737532_1_alg».proof.Proof.Gen.KernelIdeal.Frame
import proofs.«108985_j69638599737532_1_alg».proof.Proof.KernelStages
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat Cfg Window)
open Cert.Attn (hi lo)

variable (m : (ℓ : Loc nD τ sig) → Buf (Elt Ideal) ℓ) (ρ : Dev nD → PrngReg)

/-- The three argument arrays as launched. -/
abbrev aX (c : Dev nD) : S8x64x256x128.Idx → EReal := m ((c : Thread nD τ).loc main_arg0)
abbrev aW (c : Dev nD) : S128x128.Idx → EReal := m ((c : Thread nD τ).loc main_arg1)
abbrev aL (c : Dev nD) : S8x64.Idx → BitVec 32 := m ((c : Thread nD τ).loc main_arg2)

/-! ## The host lines before the kernel -/

/-- The words as the kernel finds them: the first argument viewed sentence-major. -/
theorem V_words (c : Dev nD) :
    (V m c main_v0 : S512x256x128.Idx → EReal) = shapeCast S512x256x128 (aX m c) shapeCasts_S8x64x256x128_S512x256x128 := by
  show StableHlo.after hostOps0 (fun b => m (c, b)) (Proc.devRef .tc main_v0) = _
  after_results
  try rfl

/-- The lengths as the kernel finds them: the integer argument viewed as a column of 512. -/
theorem V_lens (c : Dev nD) :
    (V m c main_v1 : S512x1.Idx → BitVec 32) = shapeCast S512x1 (aL m c) shapeCasts_S8x64_S512x1 := by
  show StableHlo.after hostOps0 (fun b => m (c, b)) (Proc.devRef .tc main_v1) = _
  after_results
  try rfl

theorem words_entry (c : Dev nD) (B : Fin 512) (s : Fin 256) (e : Fin 128) :
    (V m c main_v0 : S512x256x128.Idx → EReal) (ix3 B s e) = aX m c (ix4 (hi B) (lo B) s e) := by
  rw [V_words]
  refine shapeCast_apply _ _ (ix3 B s e) (ix4 (hi B) (lo B) s e) ?_
  rw [Shape.rowMajor_val_four, Shape.rowMajor_val_three]
  show ((B.val / 64 * 64 + B.val % 64) * 256 + s.val) * 128 + e.val = (B.val * 256 + s.val) * 128 + e.val
  omega

theorem lens_entry (c : Dev nD) (B : Fin 512) (u : Fin 1) :
    (V m c main_v1 : S512x1.Idx → BitVec 32) (ix2 B u) = aL m c (ix2 (hi B) (lo B)) := by
  rw [V_lens]
  refine shapeCast_apply _ _ (ix2 B u) (ix2 (hi B) (lo B)) ?_
  rw [Shape.rowMajor_val_two, Shape.rowMajor_val_two]
  show B.val / 64 * 64 + B.val % 64 = B.val * 1 + u.val
  have := u.isLt
  omega

/-! ## The windows' blocks -/

/-- The printed index maps over the grid: the words, the lengths and the result move one block of sixteen
    sentences per point; the projection stays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Block `t` of the words is sentences `16 t …` of the sentence-major view. -/
theorem blk_words (c : Dev nD) (t : Fin cfg0.N) (b' : Fin 16) (s : Fin 256) (e : Fin 128) (B : Fin 512)
    (hB : B.val = 16 * t.val + b'.val) :
    (iblk m c 0 t : Vec Ideal S16x256x128 .f32) (ix3 b' s e) = (V m c main_v0 : S512x256x128.Idx → EReal) (ix3 B s e) := by
  obtain ⟨h0, h1, h2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 16 + 1 * b'.val = B.val; omega
  | ⟨1, _⟩ => show win0_0.index t (1 : Fin 3) * 256 + 1 * s.val = s.val; omega
  | ⟨2, _⟩ => show win0_0.index t (2 : Fin 3) * 128 + 1 * e.val = e.val; omega

/-- The projection's block is the projection, at every point. -/
theorem blk_weights (c : Dev nD) (t : Fin cfg0.N) (e f : Fin 128) :
    (iblk m c 1 t : Vec Ideal S128x128 .f32) (ix2 e f) = aW m c (ix2 e f) := by
  obtain ⟨-, -, -, h0, h1, -⟩ := idx_facts t
  unfold iblk
  rw [View.read_apply]
  show V m c main_arg1 _ = _
  rw [V_main_arg1]
  refine congrArg (aW m c) (funext fun a => Fin.ext ?_)
  match a with
  | ⟨0, _⟩ => show win0_1.index t (0 : Fin 2) * 128 + 1 * e.val = e.val; omega
  | ⟨1, _⟩ => show win0_1.index t (1 : Fin 2) * 128 + 1 * f.val = f.val; omega

/-- Block `t` of the lengths is entries `16 t …` of the column of 512. -/
theorem blk_lens (c : Dev nD) (t : Fin cfg0.N) (b' : Fin 16) (u : Fin 1) (B : Fin 512) (hB : B.val = 16 * t.val + b'.val) :
    (iblk m c 2 t : Vec Ideal S16x1 .i32) (ix2 b' u) = (V m c main_v1 : S512x1.Idx → BitVec 32) (ix2 B u) := by
  obtain ⟨-, -, -, -, -, h0, h1, -⟩ := idx_facts t
  unfold iblk
  rw [View.read_apply]
  show V m c main_v1 _ = V m c main_v1 _
  refine congrArg (V m c main_v1) (funext fun a => Fin.ext ?_)
  match a with
  | ⟨0, _⟩ => show win0_2.index t (0 : Fin 2) * 16 + 1 * b'.val = B.val; omega
  | ⟨1, _⟩ => show win0_2.index t (1 : Fin 2) * 1 + 1 * u.val = u.val; omega

/-! ## What a point writes back -/

/-- The body's stored value at point `t`, entry `j`, is the whole-array function at the entry `i` of the result
    that `j` lands on: sentence `16 t + j₀`, the same word, the same feature. -/
theorem point_eq (c : Dev nD) (t : Fin cfg0.N) (j : S16x256x128.Idx) (i : S512x256x128.Idx)
    (h0 : (i 0).val = 16 * t.val + (j 0).val) (h1 : (i 1).val = (j 1).val) (h2 : (i 2).val = (j 2).val) :
    k0_pay1 (F := Ideal) (iblk m c 0 t) (iblk m c 1 t) (iblk m c 2 t) j = Attn.whole (aX m c) (aW m c) (aL m c) i := by
  obtain ⟨b', s, e, rfl⟩ : ∃ (b' : Fin 16) (s : Fin 256) (e : Fin 128), j = ix3 b' s e := ⟨j 0, j 1, j 2, eq_ix3 j⟩
  obtain ⟨B, s', e', rfl⟩ : ∃ (B : Fin 512) (s' : Fin 256) (e' : Fin 128), i = ix3 B s' e' := ⟨i 0, i 1, i 2, eq_ix3 i⟩
  obtain rfl : s' = s := Fin.ext h1
  obtain rfl : e' = e := Fin.ext h2
  have hB : B.val = 16 * t.val + b'.val := h0
  refine (Stages.pay_apply (iblk m c 0 t) (iblk m c 1 t) (iblk m c 2 t) b' s' e').trans ?_
  rw [Attn.whole_apply]
  have hx : Stages.sentence (iblk m c 0 t) b' = fun s e => aX m c (ix4 (hi B) (lo B) s e) :=
    funext fun s => funext fun e => (blk_words m c t b' s e B hB).trans (words_entry m c B s e)
  have hw : Stages.weights (iblk m c 1 t) = fun e f => aW m c (ix2 e f) :=
    funext fun e => funext fun f => blk_weights m c t e f
  have hl : (iblk m c 2 t : Vec Ideal S16x1 .i32) (ix2 b' 0) = aL m c (ix2 (hi B) (lo B)) :=
    (blk_lens m c t b' 0 B hB).trans (lens_entry m c B 0)
  rw [hx, hw, hl]

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT `t` WRITES BACK is block `t` of the whole-array function of the arguments. -/
theorem flushed_eq (c : Dev nD) (t : Fin cfg0.N) :
    (dats m 0 c).flushed 3 t = ((cfg0.win 3).blk t).view.read (Elt Ideal) (Attn.whole (aX m c) (aW m c) (aL m c)) := by
  show (cfg0.win 3).cut (grid0.coords t) ((dats m 0 c).after 3 t) = _
  rw [after0_3]
  unfold out0_3
  rw [View.canon_unit_zero hz3]
  simp only [View.ld_unit_zero (S := S16x256x128) hz3, View.ld_unit_zero (S := S128x128) hz2, View.ld_unit_zero (S := S16x1) hz2]
  obtain ⟨-, -, -, -, -, -, -, e0, e1, e2⟩ := idx_facts t
  funext j
  show k0_pay1 (F := Ideal) (iblk m c 0 t) (iblk m c 1 t) (iblk m c 2 t) j
    = Attn.whole (aX m c) (aW m c) (aL m c) (((cfg0.win 3).blk t).view.emb j)
  refine point_eq m c t j _ ?_ ?_ ?_
  · show win0_3.index t (0 : Fin 3) * 16 + 1 * (j 0).val = 16 * t.val + (j 0).val; omega
  · show win0_3.index t (1 : Fin 3) * 256 + 1 * (j 1).val = (j 1).val; omega
  · show win0_3.index t (2 : Fin 3) * 128 + 1 * (j 2).val = (j 2).val; omega

/-! ## The array after the run -/

/-- An entry of the result is in point `t`'s block iff each coordinate is in the block's range on its axis. -/
theorem mem_blk (t : Fin cfg0.N) (i : S512x256x128.Idx) :
    i ∈ ((cfg0.win 3).blk t).view.set ↔ ∀ a : Fin 3, win0_3.index t a * S16x256x128.size a ≤ (i a).val
      ∧ (i a).val < win0_3.index t a * S16x256x128.size a + S16x256x128.size a := by
  show i ∈ ((View.whole main_v2).slice (win0_3.rect t)).set ↔ _
  rw [View.set_slice_whole, Rect.mem_set_unit]
  exact Iff.rfl

/-- Every entry of the result is in some point's block: sentence `b` is written at point `b / 16`. -/
theorem covered (i : S512x256x128.Idx) :
    ∃ t : Fin cfg0.N, (cfg0.win 3).flush t = true ∧ i ∈ ((cfg0.win 3).blk t).view.set := by
  have hN : cfg0.N = 32 := N_0
  have hi0 : (i 0).val < 512 := (i 0).isLt
  have hi1 : (i 1).val < 256 := (i 1).isLt
  have hi2 : (i 2).val < 128 := (i 2).isLt
  have hlt : (i 0).val / 16 < cfg0.N := by rw [hN]; omega
  obtain ⟨-, -, -, -, -, -, -, e0, e1, e2⟩ := idx_facts ⟨(i 0).val / 16, hlt⟩
  have e0' : win0_3.index ⟨(i 0).val / 16, hlt⟩ (0 : Fin 3) = (i 0).val / 16 := e0
  refine ⟨⟨(i 0).val / 16, hlt⟩, flush0_3 _, ?_⟩
  rw [mem_blk]
  intro a
  match a with
  | ⟨0, _⟩ =>
    show win0_3.index ⟨(i 0).val / 16, hlt⟩ (0 : Fin 3) * 16 ≤ (i 0).val
      ∧ (i 0).val < win0_3.index ⟨(i 0).val / 16, hlt⟩ (0 : Fin 3) * 16 + 16
    omega
  | ⟨1, _⟩ =>
    show win0_3.index ⟨(i 0).val / 16, hlt⟩ (1 : Fin 3) * 256 ≤ (i 1).val
      ∧ (i 1).val < win0_3.index ⟨(i 0).val / 16, hlt⟩ (1 : Fin 3) * 256 + 256
    omega
  | ⟨2, _⟩ =>
    show win0_3.index ⟨(i 0).val / 16, hlt⟩ (2 : Fin 3) * 128 ≤ (i 2).val
      ∧ (i 2).val < win0_3.index ⟨(i 0).val / 16, hlt⟩ (2 : Fin 3) * 128 + 128
    omega

/-- THE KERNEL'S ARRAY after the run is the whole-array function of the arguments. -/
theorem final (c : Dev nD) : (dats m 0 c).arrAt 3 cfg0.N = Attn.whole (aX m c) (aW m c) (aL m c) :=
  (dats m 0 c).arrAt_eq_of_cover 3 _ (fun t _ => flushed_eq m c t) covered

/-! ## The host line after the kernel, and the run -/

/-- The program's result: the kernel's array viewed 8 × 64 × 256 × 128. -/
abbrev result (c : Dev nD) : S8x64x256x128.Idx → EReal :=
  shapeCast S8x64x256x128 (Attn.whole (aX m c) (aW m c) (aL m c)) shapeCasts_S512x256x128_S8x64x256x128

theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hw : Pipeline.withArrays spec0 c (V0 m c) (fun w => (dats m 0 c).arrAt w cfg0.N) (Proc.devRef .tc main_v2)
      = Attn.whole (aX m c) (aW m c) (aL m c) :=
    (Pipeline.withArrays_arr spec0 launch0.win.arr_inj c (V0 m c) (fun w => (dats m 0 c).arrAt w cfg0.N) 3).trans (final m c)
  funext i
  show shapeCast S8x64x256x128 (Pipeline.withArrays spec0 c (V0 m c) (fun w => (dats m 0 c).arrAt w cfg0.N)
    (Proc.devRef .tc main_v2)) shapeCasts_S512x256x128_S8x64x256x128 i = _
  rw [hw]

/-- THE KERNEL PROGRAM'S RUN, READ: every weakly fair execution terminates with the result array at the whole-array
    function of the arguments, viewed 8 × 64 × 256 × 128, and the arguments as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefStages.lean ====
/-
  The reference read entry by entry: each of its operations, at an entry `(b, s, ·)` of the sentence-major
  layout, is the corresponding stage of the one-sentence function (`Cert.Attn`) of sentence `b`.

  The reference's matrix products are sums of products over the contracted axis and its row sums are sums over
  the last axis (the generated readings of each operation); its row maximum is the fold of `max` from `-∞`,
  and taking the maximum of that with `-∞` once more changes nothing; its mask is the comparison read as the
  number 0 or 1 and multiplied in, which on the extended reals is the selection against zero.
-/
import proofs.«108985_j69638599737532_1_alg».proof.Proof.Gen.ReferenceIdeal.Read
import proofs.«108985_j69638599737532_1_alg».proof.Proof.Spec

noncomputable section

namespace Cert.ReferenceIdeal.Stages

open Cert.ReferenceIdeal Cert.ReferenceIdeal.Gen Cert.ReferenceIdeal.Read Idealize.ShloMosaic Idealize.ShloMosaic.ValueIdx
open Cert.Attn (hi lo)

variable (X : (⟨S8x64x256x128, .f32⟩ : BufTy).Contents (Elt Ideal)) (W : (⟨S128x128, .f32⟩ : BufTy).Contents (Elt Ideal))
  (L : (⟨S8x64, .i32⟩ : BufTy).Contents (Elt Ideal))

/-- Sentence `b`, the projection, and sentence `b`'s length, read off the arguments. -/
abbrev sentence (b : Fin 512) : Fin 256 → Fin 128 → EReal := fun s e => X (ix4 (hi b) (lo b) s e)
abbrev weights : Fin 128 → Fin 128 → EReal := fun e f => W (ix2 e f)
abbrev length (b : Fin 512) : BitVec 32 := L (ix2 (hi b) (lo b))

/-! ## Where each operation reads its operand -/

theorem lidx1 (b : Fin 512) (s : Fin 256) (f k : Fin 128) : lidx_main_v1 (ix3 b s f) k = ix3 b s k :=
  funext fun a => by match a with | ⟨0, _⟩ => rfl | ⟨1, _⟩ => rfl | ⟨2, _⟩ => rfl

theorem ridx1 (b : Fin 512) (s : Fin 256) (f k : Fin 128) : ridx_main_v1 (ix3 b s f) k = ix2 k f :=
  funext fun a => by match a with | ⟨0, _⟩ => rfl | ⟨1, _⟩ => rfl

theorem lidx2 (b : Fin 512) (s : Fin 256) (t : Fin 256) (k : Fin 128) : lidx_main_v2 (ix3 b s t) k = ix3 b s k :=
  funext fun a => by match a with | ⟨0, _⟩ => rfl | ⟨1, _⟩ => rfl | ⟨2, _⟩ => rfl

theorem ridx2 (b : Fin 512) (s : Fin 256) (t : Fin 256) (k : Fin 128) : ridx_main_v2 (ix3 b s t) k = ix3 b t k :=
  funext fun a => by match a with | ⟨0, _⟩ => rfl | ⟨1, _⟩ => rfl | ⟨2, _⟩ => rfl

theorem idx8 (b : Fin 512) (s : Fin 256) (t : Fin 256) : idx_main_v8 (ix3 b s t) = ix3 b s 0 :=
  funext fun a => by match a with | ⟨0, _⟩ => rfl | ⟨1, _⟩ => rfl | ⟨2, _⟩ => rfl

theorem idx7 (b : Fin 512) (s : Fin 256) (u : Fin 1) : idx_main_v7 (ix3 b s u) = ix2 b s :=
  funext fun a => by match a with | ⟨0, _⟩ => rfl | ⟨1, _⟩ => rfl

theorem idx13 (b : Fin 512) (s : Fin 256) (t : Fin 256) : idx_main_v13 (ix3 b s t) = ix3 b s 0 :=
  funext fun a => by match a with | ⟨0, _⟩ => rfl | ⟨1, _⟩ => rfl | ⟨2, _⟩ => rfl

theorem idx12 (b : Fin 512) (s : Fin 256) (u : Fin 1) : idx_main_v12 (ix3 b s u) = ix2 b s :=
  funext fun a => by match a with | ⟨0, _⟩ => rfl | ⟨1, _⟩ => rfl

theorem idx11 (b : Fin 512) (s : Fin 256) (k : Fin 256) : idx_main_v11 (ix2 b s) k = ix3 b s k :=
  funext fun a => by match a with | ⟨0, _⟩ => rfl | ⟨1, _⟩ => rfl | ⟨2, _⟩ => rfl

theorem idx26 (b : Fin 512) (s : Fin 256) (k : Fin 256) : idx_main_v26 (ix2 b s) k = ix3 b s k :=
  funext fun a => by match a with | ⟨0, _⟩ => rfl | ⟨1, _⟩ => rfl | ⟨2, _⟩ => rfl

theorem idx24 (b : Fin 512) (s : Fin 256) (t : Fin 256) : idx_main_v24 (ix3 b s t) = ix3 b 0 t :=
  funext fun a => by match a with | ⟨0, _⟩ => rfl | ⟨1, _⟩ => rfl | ⟨2, _⟩ => rfl

theorem idx23 (b : Fin 512) (u : Fin 1) (t : Fin 256) : idx_main_v23 (ix3 b u t) = ix2 b t :=
  funext fun a => by match a with | ⟨0, _⟩ => rfl | ⟨1, _⟩ => rfl

theorem idx19 (b : Fin 512) (t : Fin 256) : idx_main_v19 (ix2 b t) = ix2 0 t :=
  funext fun a => by match a with | ⟨0, _⟩ => rfl | ⟨1, _⟩ => rfl

theorem idx16 (u : Fin 1) (t : Fin 256) : idx_main_v16 (ix2 u t) = ix1 t :=
  funext fun a => by match a with | ⟨0, _⟩ => rfl

theorem idx20 (b : Fin 512) (t : Fin 256) : idx_main_v20 (ix2 b t) = ix2 b 0 :=
  funext fun a => by match a with | ⟨0, _⟩ => rfl | ⟨1, _⟩ => rfl

theorem idx18 (b : Fin 512) (u : Fin 1) : idx_main_v18 (ix2 b u) = ix1 b :=
  funext fun a => by match a with | ⟨0, _⟩ => rfl

theorem idx17 (b : Fin 512) : idx_main_v17 (ix1 b) = ix2 (hi b) (lo b) :=
  funext fun a => by match a with | ⟨0, _⟩ => rfl | ⟨1, _⟩ => rfl

theorem idx30 (b : Fin 512) (s : Fin 256) (t : Fin 256) : idx_main_v30 (ix3 b s t) = ix3 b s 0 :=
  funext fun a => by match a with | ⟨0, _⟩ => rfl | ⟨1, _⟩ => rfl | ⟨2, _⟩ => rfl

theorem idx27 (b : Fin 512) (s : Fin 256) (u : Fin 1) : idx_main_v27 (ix3 b s u) = ix2 b s :=
  funext fun a => by match a with | ⟨0, _⟩ => rfl | ⟨1, _⟩ => rfl

theorem lidx32 (b : Fin 512) (s : Fin 256) (e : Fin 128) (k : Fin 256) : lidx_main_v32 (ix3 b s e) k = ix3 b s k :=
  funext fun a => by match a with | ⟨0, _⟩ => rfl | ⟨1, _⟩ => rfl | ⟨2, _⟩ => rfl

theorem ridx32 (b : Fin 512) (s : Fin 256) (e : Fin 128) (k : Fin 256) : ridx_main_v32 (ix3 b s e) k = ix3 b k e :=
  funext fun a => by match a with | ⟨0, _⟩ => rfl | ⟨1, _⟩ => rfl | ⟨2, _⟩ => rfl

/-- The last axis of a 512 × 256 × 256 array reduces to 512 × 256. -/
theorem hRed : S512x256x256.Reduces [2] S512x256 := by decide

/-- The index a reduction over the last axis reads at coordinate `t` of row `(b, s)`. -/
theorem lift_last (h : S512x256x256.Reduces [2] S512x256) (b : Fin 512) (s t : Fin 256) :
    h.lift (ix2 b s) t = ix3 b s t :=
  funext fun c => Fin.ext (by match c with | ⟨0, _⟩ => rfl | ⟨1, _⟩ => rfl | ⟨2, _⟩ => rfl)

/-! ## The stages at an entry -/

/-- The sentence-major view of the words: entry `(b, s, e)` is word `s` of the sentence at `(b / 64, b % 64)`. -/
theorem words_apply (b : Fin 512) (s : Fin 256) (e : Fin 128) :
    val_main_v0 (F := Ideal) X (ix3 b s e) = sentence X b s e := by
  unfold val_main_v0
  refine shapeCast_apply X _ (ix3 b s e) (ix4 (hi b) (lo b) s e) ?_
  rw [Shape.rowMajor_val_four, Shape.rowMajor_val_three]
  show ((b.val / 64 * 64 + b.val % 64) * 256 + s.val) * 128 + e.val = (b.val * 256 + s.val) * 128 + e.val
  omega

theorem proj_apply (b : Fin 512) (s : Fin 256) (f : Fin 128) :
    val_main_v1 (F := Ideal) X W (ix3 b s f) = Attn.proj (sentence X b) (weights W) s f := by
  rw [val_main_v1_apply]
  unfold Attn.proj
  refine Finset.sum_congr rfl fun k _ => ?_
  rw [lidx1, ridx1, words_apply]

theorem logit_apply (b : Fin 512) (s t : Fin 256) :
    val_main_v3 (F := Ideal) X W (ix3 b s t) = Attn.logit (sentence X b) (weights W) s t := by
  rw [val_main_v3_apply, val_main_v2_apply]
  unfold Attn.logit
  refine congrArg Ideal.tanh (Finset.sum_congr rfl fun k _ => ?_)
  rw [lidx2, ridx2, proj_apply, words_apply]

theorem rowMax_apply (b : Fin 512) (s : Fin 256) :
    val_main_v6 (F := Ideal) X W (ix2 b s) = Attn.rowMax (sentence X b) (weights W) s := by
  have hR : S512x256x256.Reduces [2] S512x256 := hRed
  have h4 : val_main_v4 (F := Ideal) X W (ix2 b s) = Attn.rowMax (sentence X b) (weights W) s := by
    unfold val_main_v4 Attn.rowMax
    refine (Host.reduce_eq_fold_single (α := EReal) (FloatOps.maximumf (F := Ideal) (φ := .f32))
      (val_main_v3 (F := Ideal) X W : S512x256x256.Idx → EReal) (val_main_cst (F := Ideal) : S_.Idx → EReal)
      reducesTo_S512x256x256_S512x256_d2 hR h_S_ (ix2 b s)).trans ?_
    show (Finset.univ : Finset (Fin 256)).fold max (Ideal.ofBits .f32 0xFF800000#32) _ = _
    refine congrArg (fun g => (Finset.univ : Finset (Fin 256)).fold max (Ideal.ofBits .f32 0xFF800000#32) g) (funext fun t => ?_)
    exact (congrArg (val_main_v3 (F := Ideal) X W) (lift_last hR b s t)).trans (logit_apply X W b s t)
  rw [val_main_v6_apply, h4]
  exact Attn.max_fold_self _ _ _

theorem expo_apply (b : Fin 512) (s t : Fin 256) :
    val_main_v10 (F := Ideal) X W (ix3 b s t) = Attn.expo (sentence X b) (weights W) s t := by
  rw [val_main_v10_apply, val_main_v9_apply, val_main_v8_apply, idx8, val_main_v7_apply, idx7, logit_apply, rowMax_apply]
  rfl

theorem soft_apply (b : Fin 512) (s t : Fin 256) :
    val_main_v14 (F := Ideal) X W (ix3 b s t) = Attn.soft (sentence X b) (weights W) s t := by
  rw [val_main_v14_apply, val_main_v13_apply, idx13, val_main_v12_apply, idx12, val_main_v11_apply, expo_apply]
  unfold Attn.soft
  refine congrArg (Ideal.div _) ?_
  show Ideal.ofBits .f32 0x00000000#32 + _ = _
  rw [Ideal.ofBits_zero_f32, zero_add]
  refine Finset.sum_congr rfl fun k _ => ?_
  rw [idx11, expo_apply]

/-- The mask at `(b, ·, t)`, as a number: 1 where the key position `t` is below sentence `b`'s length, else 0. -/
theorem mask_apply (b : Fin 512) (s t : Fin 256) :
    val_main_v24 (F := Ideal) L (ix3 b s t)
      = (((IntOp.cmpi .slt (BitVec.ofNat 32 t.val) (length L b)).toNat : ℝ) : EReal) := by
  rw [val_main_v24_apply, idx24, val_main_v23_apply, idx23, val_main_v22_apply, val_main_v21_apply, val_main_v19_apply, idx19,
    val_main_v16_apply, idx16, val_main_v15_apply, val_main_v20_apply, idx20, val_main_v18_apply, idx18, val_main_v17_apply, idx17]
  rfl

theorem masked_apply (b : Fin 512) (s t : Fin 256) :
    val_main_v25 (F := Ideal) X W L (ix3 b s t) = Attn.masked (sentence X b) (weights W) (length L b) s t := by
  rw [val_main_v25_apply, soft_apply, mask_apply]
  exact Attn.mul_mask _ _

theorem renorm_apply (b : Fin 512) (s t : Fin 256) :
    val_main_v31 (F := Ideal) X W L (ix3 b s t) = Attn.renorm (sentence X b) (weights W) (length L b) s t := by
  rw [val_main_v31_apply, masked_apply, val_main_v30_apply, idx30, val_main_v29_apply, val_main_v27_apply, idx27,
    val_main_v28_apply, val_main_v26_apply]
  unfold Attn.renorm
  refine congrArg (Ideal.div _) ?_
  show (Ideal.ofBits .f32 0x00000000#32 + _) + Ideal.ofBits .f32 0x322BCC77#32 = _
  rw [Ideal.ofBits_zero_f32, zero_add]
  refine congrArg (· + Ideal.ofBits .f32 0x322BCC77#32) (Finset.sum_congr rfl fun k _ => ?_)
  rw [idx26, masked_apply]

/-- THE REFERENCE, before its last reshape, is the whole-array function of its three arguments. -/
theorem attended_eq : val_main_v32 (F := Ideal) X W L = Attn.whole X W L := by
  funext i
  obtain ⟨b, s, e, rfl⟩ : ∃ (b : Fin 512) (s : Fin 256) (e : Fin 128), i = ix3 b s e := ⟨i 0, i 1, i 2, eq_ix3 i⟩
  rw [val_main_v32_apply, Attn.whole_apply]
  unfold Attn.att
  refine Finset.sum_congr rfl fun k _ => ?_
  rw [lidx32, ridx32, renorm_apply, words_apply]

end Cert.ReferenceIdeal.Stages

end
-- ==== Proof.lean ====
/-
  The certificate: a Pallas kernel for masked, tanh-squashed self-attention over 512 sentences, against its
  jnp reference, equal over the extended reals.

  Each sentence `x` (256 words × 128 features) is attended to itself: `q = x · w`, logits `tanh (q · xᵀ)`, a
  soft-max over the key positions, the positions at or past the sentence's length silenced, the rows
  renormalised by their sum plus a small constant, and the weights applied to `x`. The kernel does this on
  blocks of sixteen sentences, with its matrix products in a narrow float format (the same numbers at the ideal
  values), its mask by selection against zero, and the batch flattened into rows for the projection; the
  reference does it on all 512 sentences at once with `dot_general`s, its mask by a product with 0 / 1, and one
  more `max` against `-∞` in its soft-max. Both are the one-sentence function `Cert.Attn.att` of each sentence
  (Proof/KernelStages.lean, Proof/RefStages.lean), so both result arrays are `Cert.Attn.whole` of the three
  arguments viewed 8 × 64 × 256 × 128 (Proof/KernelWhole.lean for the kernel's blocks and host lines). No step
  uses finiteness of the inputs: the two sides are the same sums, folds and quotients of the same terms, and
  the one law between them, `p · 0 = 0` and `p · 1 = p`, holds at the infinities too. The ideal pass rewrote
  nothing, so the idealization claim is trivial; the three frames are the generated ones.
-/
import proofs.«108985_j69638599737532_1_alg».proof.Defs
import proofs.«108985_j69638599737532_1_alg».proof.Proof.Gen.Kernel
import proofs.«108985_j69638599737532_1_alg».proof.Proof.Gen.Kernel.Skeleton
import proofs.«108985_j69638599737532_1_alg».proof.Proof.Gen.Kernel.Launch
import proofs.«108985_j69638599737532_1_alg».proof.Proof.Gen.Kernel.Points
import proofs.«108985_j69638599737532_1_alg».proof.Proof.Gen.Kernel.Frame
import proofs.«108985_j69638599737532_1_alg».proof.Proof.Gen.KernelIdeal
import proofs.«108985_j69638599737532_1_alg».proof.Proof.Gen.KernelIdeal.Skeleton
import proofs.«108985_j69638599737532_1_alg».proof.Proof.Gen.KernelIdeal.Launch
import proofs.«108985_j69638599737532_1_alg».proof.Proof.Gen.KernelIdeal.Points
import proofs.«108985_j69638599737532_1_alg».proof.Proof.Gen.KernelIdeal.Frame
import proofs.«108985_j69638599737532_1_alg».proof.Proof.Gen.ReferenceIdeal
import proofs.«108985_j69638599737532_1_alg».proof.Proof.Gen.ReferenceIdeal.Run
import proofs.«108985_j69638599737532_1_alg».proof.Proof.Gen.ReferenceIdeal.Read
import proofs.«108985_j69638599737532_1_alg».proof.Proof.Gen.Pre_finite_inputs
import proofs.«108985_j69638599737532_1_alg».proof.Proof.KernelWhole
import proofs.«108985_j69638599737532_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values both programs end with the whole-array function of arguments that agree, viewed
    8 × 64 × 256 × 128: the kernel's run read through its blocks and host lines, the reference's run read one
    operation at a time. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  unfold Cert.ReferenceIdeal.Read.val_main_v33
  rw [Cert.ReferenceIdeal.Stages.attended_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
